-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S16x4096 .f32) (main_arg4 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x4096 : Shape := ⟨2, ![1, 4096]⟩
abbrev S128x4096 : Shape := ⟨2, ![128, 4096]⟩
abbrev S128x16 : Shape := ⟨2, ![128, 16]⟩
abbrev S1024x4096 : Shape := ⟨2, ![1024, 4096]⟩
abbrev S16x1024 : Shape := ⟨2, ![16, 1024]⟩
abbrev S1x1024 : Shape := ⟨2, ![1, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .bf16⟩
  | .hbm, ⟨6, _⟩ => ⟨S16x4096, .bf16⟩
  | .hbm, ⟨7, _⟩ => ⟨S4096x16, .bf16⟩
  | .hbm, ⟨8, _⟩ => ⟨S16x4096, .bf16⟩
  | .hbm, ⟨9, _⟩ => ⟨S1x4096, .f32⟩
  | .hbm, ⟨10, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S1x4096, .f32⟩
  | .local _ .vmem, ⟨4, _⟩ => ⟨S16x4096, .bf16⟩
  | .local _ .vmem, ⟨5, _⟩ => ⟨S16x4096, .bf16⟩
  | .local _ .vmem, ⟨6, _⟩ => ⟨S128x4096, .f32⟩
  | .local _ .vmem, ⟨7, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c1024_i32 : BitVec 32 := 1024#32
  let v9 : BitVec 32 := Scalar.muli v8 c1024_i32
  v9
def k0_off1 (k0_t1 : Fin k0_t1_loop.trips) : Fin 2 → Nat :=
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c1024_i32 : BitVec 32 := 1024#32
  let v9 : BitVec 32 := Scalar.muli v8 c1024_i32
  let v10 : BitVec 32 := v9
  let v11 : Index := Scalar.indexCast v10
  let c0_6 : Index := 0#32
  ![v11.toNat, 0]
def k0_off2 (k0_t1 : Fin k0_t1_loop.trips) : Fin 2 → Nat :=
  let c0_7 : Index := 0#32
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c1024_i32 : BitVec 32 := 1024#32
  let v9 : BitVec 32 := Scalar.muli v8 c1024_i32
  let v10 : BitVec 32 := v9
  let v14 : Index := Scalar.indexCast v10
  ![0, v14.toNat]
def k0_off3 (k0_t1 : Fin k0_t1_loop.trips) : Fin 2 → Nat :=
  let c0_8 : Index := 0#32
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c1024_i32 : BitVec 32 := 1024#32
  let v9 : BitVec 32 := Scalar.muli v8 c1024_i32
  let v10 : BitVec 32 := v9
  let v17 : Index := Scalar.indexCast v10
  ![0, v17.toNat]
def k0_off4 (k0_t1 : Fin k0_t1_loop.trips) : Fin 2 → Nat :=
  let c0_12 : Index := 0#32
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c1024_i32 : BitVec 32 := 1024#32
  let v9 : BitVec 32 := Scalar.muli v8 c1024_i32
  let v10 : BitVec 32 := v9
  let v27 : Index := Scalar.indexCast v10
  ![0, v27.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S4096x16_S16x4096_1_0 : S4096x16.Transposes [1, 0] S16x4096
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  h_S1024x4096 : 0 < S1024x4096.numel
  shapeCasts_S1024x4096_S1024x4096 : S1024x4096.ShapeCasts S1024x4096
  h_S16x1024 : 0 < S16x1024.numel
  shapeCasts_S16x1024_S16x1024 : S16x1024.ShapeCasts S16x1024
  h_S1x1024 : 0 < S1x1024.numel
  shapeCasts_S1x1024_S1x1024 : S1x1024.ShapeCasts S1x1024
  broadcasts_S1x1024_S128x1024 : S1x1024.Broadcasts S128x1024
  h_S128x1024 : 0 < S128x1024.numel
  dot_S128x4096_S16x4096_S128x16_1_1_0_0_n_n_wf : DotDims.WF S128x4096 S16x4096 S128x16 [1] [1] [0] [0] [] []
  dot_S128x4096_S1024x4096_S128x1024_1_1_0_0_n_n_wf : DotDims.WF S128x4096 S1024x4096 S128x1024 [1] [1] [0] [0] [] []
  dot_S128x16_S16x1024_S128x1024_1_0_0_1_n_n_wf : DotDims.WF S128x16 S16x1024 S128x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x4096.size a ≤ S4096x4096.size a
  k0_off2_inb : ∀ k0_t1 : Fin k0_t1_loop.trips, ∀ a, (k0_off2 k0_t1) a + S16x1024.size a ≤ S16x4096.size a
  k0_off3_inb : ∀ k0_t1 : Fin k0_t1_loop.trips, ∀ a, (k0_off3 k0_t1) a + S1x1024.size a ≤ S1x4096.size a
  k0_off4_inb : ∀ k0_t1 : Fin k0_t1_loop.trips, ∀ a, (k0_off4 k0_t1) a + S128x1024.size a ≤ S128x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .bf16 = 32 ∨ (Rect.block (s := S16x4096) S16x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S16x4096.size a
  hwx0_4 : ∀ i : grid0.Coords, EltTy.bits .bf16 = 32 ∨ (Rect.block (s := S16x4096) S16x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

def dot_S128x4096_S16x4096_S128x16_1_1_0_0_n_n : DotDims S128x4096 S16x4096 S128x16 where
  lhsContracting := [1]
  rhsContracting := [1]
  lhsNonContracting := [0]
  rhsNonContracting := [0]
  lhsBatch := []
  rhsBatch := []
  wf := dot_S128x4096_S16x4096_S128x16_1_1_0_0_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def dot_S128x16_S16x1024_S128x1024_1_0_0_1_n_n : DotDims S128x16 S16x1024 S128x1024 where
  lhsContracting := [1]
  rhsContracting := [0]
  lhsNonContracting := [0]
  rhsNonContracting := [1]
  lhsBatch := []
  rhsBatch := []
  wf := dot_S128x16_S16x1024_S128x1024_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S16x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x4096 : Shape := ⟨2, ![1, 4096]⟩
abbrev S8192x16 : Shape := ⟨2, ![8192, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x16, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []
  dot_S8192x4096_S16x4096_S8192x16_1_1_0_0_n_n_wf : DotDims.WF S8192x4096 S16x4096 S8192x16 [1] [1] [0] [0] [] []
  dot_S8192x16_S4096x16_S8192x4096_1_1_0_0_n_n_wf : DotDims.WF S8192x16 S4096x16 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S4096x16_S8192x4096_1_1_0_0_n_n : DotDims S8192x16 S4096x16 S8192x4096 where
  lhsContracting := [1]
  rhsContracting := [1]
  lhsNonContracting := [0]
  rhsNonContracting := [0]
  lhsBatch := []
  rhsBatch := []
  wf := dot_S8192x16_S4096x16_S8192x4096_1_1_0_0_n_n_wf

class Facts : Prop extends Facts₀ where

variable [Facts]
-- ==== Proof.Pieces.lean ====
/-
  What the kernel body's stores leave, as a list.  The body loads the block of input rows and the down
  projection once and then runs four trips; trip k loads rows 1024k … 1024k+1023 of the weight, columns
  1024k … 1024k+1023 of the transposed up projection and of the bias row, and stores ONE [128, 1024] tile of
  the output block at columns 1024k … 1024k+1023.  So every store of the body is one of the four trips' tiles:
  the tile of trip k is the payload of the loads at trip k's offsets, placed at trip k's offset.
-/
import proofs.«173151_j14499809591526_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- THE TILE TRIP k STORES, over the contents `x0 … x4` of the five input staging buffers: at columns
    1024k … of the output block, the payload of the input rows, the down projection, and the trip's tiles of the
    weight (rows 1024k …), the transposed up projection and the bias (columns 1024k …). -/
def tile (x0 : Vec F S128x4096 .f32) (x1 : Vec F S4096x4096 .bf16) (x2 : Vec F S1x4096 .f32) (x3 : Vec F S16x4096 .bf16)
    (x4 : Vec F S16x4096 .bf16) (k : Fin k0_t1_loop.trips) : View.Piece (Elt F) S128x4096 .f32 :=
  ⟨Rect.unit (s := S128x4096) (k0_off4 k) S128x1024.size (k0_off4_inb k),
    k0_pay1 x0 x3 (View.ld x1 (Rect.unit (s := S4096x4096) (k0_off1 k) S1024x4096.size (k0_off1_inb k)))
      (View.ld x4 (Rect.unit (s := S16x4096) (k0_off2 k) S16x1024.size (k0_off2_inb k)))
      (View.ld x2 (Rect.unit (s := S1x4096) (k0_off3 k) S1x1024.size (k0_off3_inb k)))⟩

/-- One trip stores one tile: the payload of what it loads, at its offset. -/
theorem trip_pieces (𝒱 : Variants) (c : Dev nD) (bd : Option 𝒱.V) (i : grid0.Coords) (a1 : Memref sig .tc .vmem S128x4096 .f32) (h1 : a1.IsWhole) (a2 : Memref sig .tc .vmem S4096x4096 .bf16) (h2 : a2.IsWhole) (a3 : Memref sig .tc .vmem S1x4096 .f32) (h3 : a3.IsWhole) (a4 : Memref sig .tc .vmem S16x4096 .bf16) (h4 : a4.IsWhole) (a5 : Memref sig .tc .vmem S16x4096 .bf16) (h5 : a5.IsWhole) (a6 : Memref sig .tc .vmem S128x4096 .f32) (h6 : a6.IsWhole)
    (v0 : Vec F S128x4096 .f32) (v2 : Vec F S16x4096 .bf16) (X2 : BufTy.Contents (Elt F) a2.view.ty)
    (X3 : BufTy.Contents (Elt F) a3.view.ty) (X5 : BufTy.Contents (Elt F) a5.view.ty) (k : Fin k0_t1_loop.trips) :
    tripL_k0_t1 (F := F) 𝒱 c bd i a1 h1 a2 h2 a3 h3 a4 h4 a5 h5 a6 h6 v0 v2 X2 X3 X5 k
      = [⟨Rect.unit (s := S128x4096) (k0_off4 k) S128x1024.size (k0_off4_inb k),
          k0_pay1 v0 v2 (View.readAt (Elt F) a2.view (Rect.unit (s := S4096x4096) (k0_off1 k) S1024x4096.size (k0_off1_inb k)).toLoadRect X2)
            (View.readAt (Elt F) a5.view (Rect.unit (s := S16x4096) (k0_off2 k) S16x1024.size (k0_off2_inb k)).toLoadRect X5)
            (View.readAt (Elt F) a3.view (Rect.unit (s := S1x4096) (k0_off3 k) S1x1024.size (k0_off3_inb k)).toLoadRect X3)⟩] := by
  unfold tripL_k0_t1 trip_k0_t1
  rfl

/-- The stores of the trips before any trip count are stores of single trips (induction on the count). -/
theorem mem_before (𝒱 : Variants) (c : Dev nD) (bd : Option 𝒱.V) (i : grid0.Coords) (a1 : Memref sig .tc .vmem S128x4096 .f32) (h1 : a1.IsWhole) (a2 : Memref sig .tc .vmem S4096x4096 .bf16) (h2 : a2.IsWhole) (a3 : Memref sig .tc .vmem S1x4096 .f32) (h3 : a3.IsWhole) (a4 : Memref sig .tc .vmem S16x4096 .bf16) (h4 : a4.IsWhole) (a5 : Memref sig .tc .vmem S16x4096 .bf16) (h5 : a5.IsWhole) (a6 : Memref sig .tc .vmem S128x4096 .f32) (h6 : a6.IsWhole)
    (v0 : Vec F S128x4096 .f32) (v2 : Vec F S16x4096 .bf16) (X2 : BufTy.Contents (Elt F) a2.view.ty)
    (X3 : BufTy.Contents (Elt F) a3.view.ty) (X5 : BufTy.Contents (Elt F) a5.view.ty) :
    ∀ (n : ℕ) (pc : View.Piece (Elt F) S128x4096 .f32),
      pc ∈ pb_k0_t1 (F := F) 𝒱 c bd i a1 h1 a2 h2 a3 h3 a4 h4 a5 h5 a6 h6 v0 v2 X2 X3 X5 n →
      ∃ k : Fin k0_t1_loop.trips, pc ∈ tripL_k0_t1 (F := F) 𝒱 c bd i a1 h1 a2 h2 a3 h3 a4 h4 a5 h5 a6 h6 v0 v2 X2 X3 X5 k
  | 0, pc, h => by
    rw [pb_k0_t1.eq_1] at h
    exact absurd h List.not_mem_nil
  | n + 1, pc, h => by
    rw [pb_k0_t1.eq_2] at h
    unfold pb_k0_t1Step at h
    split at h
    · rename_i hn
      rcases List.mem_append.mp h with h' | h'
      · exact ⟨⟨n, hn⟩, h'⟩
      · exact mem_before 𝒱 c bd i a1 h1 a2 h2 a3 h3 a4 h4 a5 h5 a6 h6 v0 v2 X2 X3 X5 n pc h'
    · exact mem_before 𝒱 c bd i a1 h1 a2 h2 a3 h3 a4 h4 a5 h5 a6 h6 v0 v2 X2 X3 X5 n pc h

theorem hz : (![0, 0] : Fin 2 → Nat) = fun _ => 0 := funext fun a => by fin_cases a <;> rfl

/-- EVERY STORE OF THE BODY IS A TRIP'S TILE: on whole staging buffers holding `x0 … x4`, each piece the body's
    run leaves in the output's staging buffer is `tile x0 … x4 k` for one of the four trips k. -/
theorem mem_run (c : Dev nD) (i : grid0.Coords) (a1 : Memref sig .tc .vmem S128x4096 .f32) (h1 : a1.IsWhole) (a2 : Memref sig .tc .vmem S4096x4096 .bf16) (h2 : a2.IsWhole) (a3 : Memref sig .tc .vmem S1x4096 .f32) (h3 : a3.IsWhole) (a4 : Memref sig .tc .vmem S16x4096 .bf16) (h4 : a4.IsWhole) (a5 : Memref sig .tc .vmem S16x4096 .bf16) (h5 : a5.IsWhole) (a6 : Memref sig .tc .vmem S128x4096 .f32) (h6 : a6.IsWhole)
    (x0 : Vec F S128x4096 .f32) (x1 : Vec F S4096x4096 .bf16) (x2 : Vec F S1x4096 .f32) (x3 : Vec F S16x4096 .bf16)
    (x4 : Vec F S16x4096 .bf16) (pc : View.Piece (Elt F) S128x4096 .f32)
    (h : pc ∈ (kernelRun0_A c i a1 h1 a2 h2 a3 h3 a4 h4 a5 h5 a6 h6 x0 x1 x2 x3 x4).1) :
    ∃ k : Fin k0_t1_loop.trips, pc = tile x0 x1 x2 x3 x4 k := by
  unfold kernelRun0_A at h
  dsimp only at h
  obtain ⟨k, hk⟩ := mem_before _ c _ i a1 h1 a2 h2 a3 h3 a4 h4 a5 h5 a6 h6 _ _ _ _ _ _ pc h
  refine ⟨k, ?_⟩
  rw [trip_pieces, List.mem_singleton] at hk
  rw [hk]
  unfold tile
  simp only [View.readAt_eq_ld, h1.read_unread, h2.read_unread, h3.read_unread, h4.read_unread, h5.read_unread,
    View.ld_unit_zero (S := S128x4096) hz, View.ld_unit_zero (S := S16x4096) hz]

end Cert.KernelIdeal.Pieces

end
-- ==== Proof.Spec.lean ====
/-
  The function both programs compute, entry by entry over the extended reals.  For a row `x_n` of the input,
  a row `W_o` of the weight, a bias entry `b_o`, the sixteen rows `A_r` of the down projection and the row
  `B_o` of the up projection,
      out[n, o] = (⟨x_n, W_o⟩ + b_o) + 2 · Σ_r ⟨x_n, A_r⟩ · B_o[r].
  Both programs compute the sums in this very arrangement (an inner product over the 4096 input features, then a
  sum over the 16 ranks), so no law of the extended reals beyond reading each operation at an index is needed,
  and in particular no finiteness.
-/
import Idealize.ShloMosaic.PureOps.Ideal
import Idealize.ShloMosaic.Lib.ValueIdx

noncomputable section

open scoped BigOperators

namespace Cert.Lora

open Idealize.ShloMosaic

/-- The scale 2, spelt as both programs spell it: the value of the f32 word of 2.0. -/
abbrev two : EReal := Ideal.ofBits .f32 0x40000000#32

/-- One output entry from a row `xr` of the input, a row `wr` of the weight, a bias entry `β`, the rows `A r`
    of the down projection and the entries `Br r` of one row of the up projection:
    `(⟨xr, wr⟩ + β) + 2 · Σ_r ⟨xr, A r⟩ · Br r`. -/
def entry (xr wr : Fin 4096 → EReal) (β : EReal) (A : Fin 16 → Fin 4096 → EReal) (Br : Fin 16 → EReal) : EReal :=
  ((∑ i : Fin 4096, xr i * wr i) + β) + two * ∑ r : Fin 16, (∑ i : Fin 4096, xr i * A r i) * Br r

/-- An entry depends on its five arguments only through their values. -/
theorem entry_congr {xr xr' wr wr' : Fin 4096 → EReal} {β β' : EReal} {A A' : Fin 16 → Fin 4096 → EReal}
    {Br Br' : Fin 16 → EReal} (hx : ∀ i, xr i = xr' i) (hw : ∀ i, wr i = wr' i) (hβ : β = β')
    (hA : ∀ r i, A r i = A' r i) (hB : ∀ r, Br r = Br' r) :
    entry xr wr β A Br = entry xr' wr' β' A' Br' := by
  obtain rfl : xr = xr' := funext hx
  obtain rfl : wr = wr' := funext hw
  obtain rfl : A = A' := funext fun r => funext (hA r)
  obtain rfl : Br = Br' := funext hB
  rw [hβ]

end Cert.Lora

end
-- ==== Proof.Payload.lean ====
/-
  The value one trip of the kernel body's loop stores, read at an entry.  The trip's stored tile is
      (x̂ · Ŵᵀ + b̂) + 2 · ((x̂ · Âᵀ)^ · B̂)
  where x̂ is the [128, 4096] block of input rows (a change of float format is the identity on the extended reals),
  Ŵ a [1024, 4096] tile of weight rows, b̂ a [1, 1024] tile of the bias, Â the whole [16, 4096] down projection and
  B̂ a [16, 1024] tile of the transposed up projection.  Each matrix product accumulates into zero, so at an
  entry it is the plain sum over its one contracted axis; the bias row is broadcast down the 128 rows; the scale
  is a splat.  Hence entry (p, q) of the tile is `Cert.Lora.entry` of row p of x̂, row q of Ŵ, b̂[0, q], the rows
  of Â and column q of B̂.
-/
import proofs.«173151_j14499809591526_2_alg».proof.Proof.Gen.KernelIdeal.Skeleton
import proofs.«173151_j14499809591526_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Lora

/-- On its row axis the left operand's index is the output's row. -/
theorem down_lhs_row (j : S128x16.Idx) (k : dot_S128x4096_S16x4096_S128x16_1_1_0_0_n_n.contr.Idx) : (dot_S128x4096_S16x4096_S128x16_1_1_0_0_n_n.lhsIdx j k 0).val = (j 0).val := by
  unfold DotDims.lhsIdx
  rw [dif_neg (show ¬(0 : Fin S128x4096.rank) ∈ dot_S128x4096_S16x4096_S128x16_1_1_0_0_n_n.lhsBatch by decide), dif_pos (show (0 : Fin S128x4096.rank) ∈ dot_S128x4096_S16x4096_S128x16_1_1_0_0_n_n.lhsNonContracting by decide)]
  rfl
/-- On its free axis the right operand's index is the output's column. -/
theorem down_rhs_col (j : S128x16.Idx) (k : dot_S128x4096_S16x4096_S128x16_1_1_0_0_n_n.contr.Idx) : (dot_S128x4096_S16x4096_S128x16_1_1_0_0_n_n.rhsIdx j k 0).val = (j 1).val := by
  unfold DotDims.rhsIdx
  rw [dif_neg (show ¬(0 : Fin S16x4096.rank) ∈ dot_S128x4096_S16x4096_S128x16_1_1_0_0_n_n.rhsBatch by decide), dif_pos (show (0 : Fin S16x4096.rank) ∈ dot_S128x4096_S16x4096_S128x16_1_1_0_0_n_n.rhsNonContracting by decide)]
  rfl

/-- The product of the 128 input rows with the 16 rows of the down projection, both contracted over their
    4096 features, accumulated into zero: entry (p, s) is the inner product of row p and row s. -/
theorem down_apply (l : FVec Ideal S128x4096 .bf16) (r : FVec Ideal S16x4096 .bf16) (p : Fin 128) (q : Fin 16) :
    matmul dot_S128x4096_S16x4096_S128x16_1_1_0_0_n_n none l r (constant S128x16 .f32 0x00000000#32) (ix2 p q)
      = ∑ k : Fin 4096, l (ix2 p k) * r (ix2 q k) := by
  simp only [matmul]
  rw [Ideal.matmul_constant_zero_apply, ← Equiv.sum_comp (contrEquiv1 dot_S128x4096_S16x4096_S128x16_1_1_0_0_n_n 4096 rfl rfl).symm]
  refine Finset.sum_congr rfl fun k _ => ?_
  have hk := contrEquiv1_symm_val dot_S128x4096_S16x4096_S128x16_1_1_0_0_n_n 4096 rfl rfl k
  have el : dot_S128x4096_S16x4096_S128x16_1_1_0_0_n_n.lhsIdx (ix2 p q) ((contrEquiv1 dot_S128x4096_S16x4096_S128x16_1_1_0_0_n_n 4096 rfl rfl).symm k) = ix2 p k := funext fun a => Fin.ext (by
    match a with
    | ⟨0, _⟩ => exact down_lhs_row _ _
    | ⟨1, _⟩ => exact (dot_S128x4096_S16x4096_S128x16_1_1_0_0_n_n.lhsIdx_val_of_single rfl _ _).trans hk)
  have er : dot_S128x4096_S16x4096_S128x16_1_1_0_0_n_n.rhsIdx (ix2 p q) ((contrEquiv1 dot_S128x4096_S16x4096_S128x16_1_1_0_0_n_n 4096 rfl rfl).symm k) = ix2 q k := funext fun a => Fin.ext (by
    match a with
    | ⟨0, _⟩ => exact down_rhs_col _ _
    | ⟨1, _⟩ => exact (dot_S128x4096_S16x4096_S128x16_1_1_0_0_n_n.rhsIdx_val_of_single rfl _ _).trans hk)
  rw [el, er]

/-- On its row axis the left operand's index is the output's row. -/
theorem base_lhs_row (j : S128x1024.Idx) (k : dot_S128x4096_S1024x4096_S128x1024_1_1_0_0_n_n.contr.Idx) : (dot_S128x4096_S1024x4096_S128x1024_1_1_0_0_n_n.lhsIdx j k 0).val = (j 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
/-- On its free axis the right operand's index is the output's column. -/
theorem base_rhs_col (j : S128x1024.Idx) (k : dot_S128x4096_S1024x4096_S128x1024_1_1_0_0_n_n.contr.Idx) : (dot_S128x4096_S1024x4096_S128x1024_1_1_0_0_n_n.rhsIdx j k 0).val = (j 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl

/-- The product of the 128 input rows with a tile of 1024 weight rows, both contracted over their 4096
    features, accumulated into zero: entry (p, q) is the inner product of row p and weight row q. -/
theorem base_apply (l : FVec Ideal S128x4096 .bf16) (r : FVec Ideal S1024x4096 .bf16) (p : Fin 128) (q : Fin 1024) :
    matmul dot_S128x4096_S1024x4096_S128x1024_1_1_0_0_n_n none l r (constant S128x1024 .f32 0x00000000#32) (ix2 p q)
      = ∑ k : Fin 4096, l (ix2 p k) * r (ix2 q k) := by
  simp only [matmul]
  rw [Ideal.matmul_constant_zero_apply, ← Equiv.sum_comp (contrEquiv1 dot_S128x4096_S1024x4096_S128x1024_1_1_0_0_n_n 4096 rfl rfl).symm]
  refine Finset.sum_congr rfl fun k _ => ?_
  have hk := contrEquiv1_symm_val dot_S128x4096_S1024x4096_S128x1024_1_1_0_0_n_n 4096 rfl rfl k
  have el : dot_S128x4096_S1024x4096_S128x1024_1_1_0_0_n_n.lhsIdx (ix2 p q) ((contrEquiv1 dot_S128x4096_S1024x4096_S128x1024_1_1_0_0_n_n 4096 rfl rfl).symm k) = ix2 p k := funext fun a => Fin.ext (by
    match a with
    | ⟨0, _⟩ => exact base_lhs_row _ _
    | ⟨1, _⟩ => exact (dot_S128x4096_S1024x4096_S128x1024_1_1_0_0_n_n.lhsIdx_val_of_single rfl _ _).trans hk)
  have er : dot_S128x4096_S1024x4096_S128x1024_1_1_0_0_n_n.rhsIdx (ix2 p q) ((contrEquiv1 dot_S128x4096_S1024x4096_S128x1024_1_1_0_0_n_n 4096 rfl rfl).symm k) = ix2 q k := funext fun a => Fin.ext (by
    match a with
    | ⟨0, _⟩ => exact base_rhs_col _ _
    | ⟨1, _⟩ => exact (dot_S128x4096_S1024x4096_S128x1024_1_1_0_0_n_n.rhsIdx_val_of_single rfl _ _).trans hk)
  rw [el, er]

/-- On its row axis the left operand's index is the output's row. -/
theorem up_lhs_row (j : S128x1024.Idx) (k : dot_S128x16_S16x1024_S128x1024_1_0_0_1_n_n.contr.Idx) : (dot_S128x16_S16x1024_S128x1024_1_0_0_1_n_n.lhsIdx j k 0).val = (j 0).val := by
  unfold DotDims.lhsIdx
  rw [dif_neg (show ¬(0 : Fin S128x16.rank) ∈ dot_S128x16_S16x1024_S128x1024_1_0_0_1_n_n.lhsBatch by decide), dif_pos (show (0 : Fin S128x16.rank) ∈ dot_S128x16_S16x1024_S128x1024_1_0_0_1_n_n.lhsNonContracting by decide)]
  rfl
/-- On its free axis the right operand's index is the output's column. -/
theorem up_rhs_col (j : S128x1024.Idx) (k : dot_S128x16_S16x1024_S128x1024_1_0_0_1_n_n.contr.Idx) : (dot_S128x16_S16x1024_S128x1024_1_0_0_1_n_n.rhsIdx j k 1).val = (j 1).val := by
  unfold DotDims.rhsIdx
  rw [dif_neg (show ¬(1 : Fin S16x1024.rank) ∈ dot_S128x16_S16x1024_S128x1024_1_0_0_1_n_n.rhsBatch by decide), dif_pos (show (1 : Fin S16x1024.rank) ∈ dot_S128x16_S16x1024_S128x1024_1_0_0_1_n_n.rhsNonContracting by decide)]
  rfl

/-- The product of the [128, 16] down-projected rows with a [16, 1024] tile of the transposed up projection,
    contracted over the 16 ranks, accumulated into zero: entry (p, q) sums, over the rank k, the (p, k) entry
    times the (k, q) entry. -/
theorem up_apply (l : FVec Ideal S128x16 .bf16) (r : FVec Ideal S16x1024 .bf16) (p : Fin 128) (q : Fin 1024) :
    matmul dot_S128x16_S16x1024_S128x1024_1_0_0_1_n_n none l r (constant S128x1024 .f32 0x00000000#32) (ix2 p q)
      = ∑ k : Fin 16, l (ix2 p k) * r (ix2 k q) := by
  simp only [matmul]
  rw [Ideal.matmul_constant_zero_apply, ← Equiv.sum_comp (contrEquiv1 dot_S128x16_S16x1024_S128x1024_1_0_0_1_n_n 16 rfl rfl).symm]
  refine Finset.sum_congr rfl fun k _ => ?_
  have hk := contrEquiv1_symm_val dot_S128x16_S16x1024_S128x1024_1_0_0_1_n_n 16 rfl rfl k
  have el : dot_S128x16_S16x1024_S128x1024_1_0_0_1_n_n.lhsIdx (ix2 p q) ((contrEquiv1 dot_S128x16_S16x1024_S128x1024_1_0_0_1_n_n 16 rfl rfl).symm k) = ix2 p k := funext fun a => Fin.ext (by
    match a with
    | ⟨0, _⟩ => exact up_lhs_row _ _
    | ⟨1, _⟩ => exact (dot_S128x16_S16x1024_S128x1024_1_0_0_1_n_n.lhsIdx_val_of_single rfl _ _).trans hk)
  have er : dot_S128x16_S16x1024_S128x1024_1_0_0_1_n_n.rhsIdx (ix2 p q) ((contrEquiv1 dot_S128x16_S16x1024_S128x1024_1_0_0_1_n_n 16 rfl rfl).symm k) = ix2 k q := funext fun a => Fin.ext (by
    match a with
    | ⟨0, _⟩ => exact (dot_S128x16_S16x1024_S128x1024_1_0_0_1_n_n.rhsIdx_val_of_single rfl _ _).trans hk
    | ⟨1, _⟩ => exact up_rhs_col _ _)
  rw [el, er]

/-- THE TRIP'S STORED TILE AT AN ENTRY: with `x0` the block of input rows, `x3` the down projection, `v12` the
    trip's tile of weight rows, `v15` its tile of the transposed up projection and `v18` its tile of the bias,
    entry (p, q) is `Cert.Lora.entry` of row p of `x0`, row q of `v12`, `v18[0, q]`, the rows of `x3` and column q
    of `v15`. -/
theorem pay_apply (x0 : FVec Ideal S128x4096 .f32) (x3 : FVec Ideal S16x4096 .bf16) (v12 : FVec Ideal S1024x4096 .bf16)
    (v15 : FVec Ideal S16x1024 .bf16) (v18 : FVec Ideal S1x1024 .f32) (p : Fin 128) (q : Fin 1024) :
    k0_pay1 (F := Ideal) x0 x3 v12 v15 v18 (ix2 p q)
      = entry (fun i => x0 (ix2 p i)) (fun i => v12 (ix2 q i)) (v18 (ix2 (0 : Fin 1) q)) (fun r i => x3 (ix2 r i)) (fun r => v15 (ix2 r q)) := by
  unfold k0_pay1
  simp only [shapeCast_self]
  show (matmul dot_S128x4096_S1024x4096_S128x1024_1_1_0_0_n_n none (truncf .bf16 x0 bitsLt_bf16_f32) v12 (constant S128x1024 .f32 0x00000000#32) (ix2 p q)
        + broadcastTo S128x1024 v18 broadcasts_S1x1024_S128x1024 (ix2 p q))
      + (Ideal.ofBits .f32 0x40000000#32) * matmul dot_S128x16_S16x1024_S128x1024_1_0_0_1_n_n none
          (truncf .bf16 (matmul dot_S128x4096_S16x4096_S128x16_1_1_0_0_n_n none (truncf .bf16 x0 bitsLt_bf16_f32) x3 (constant S128x16 .f32 0x00000000#32)) bitsLt_bf16_f32)
          v15 (constant S128x1024 .f32 0x00000000#32) (ix2 p q) = _
  rw [base_apply, up_apply, broadcastTo_1b_ab_apply]
  unfold entry
  refine congrArg₂ (· + ·) rfl (congrArg (two * ·) (Finset.sum_congr rfl fun r _ => ?_))
  show matmul dot_S128x4096_S16x4096_S128x16_1_1_0_0_n_n none (truncf .bf16 x0 bitsLt_bf16_f32) x3 (constant S128x16 .f32 0x00000000#32) (ix2 p r) * v15 (ix2 r q) = _
  rw [down_apply]
  rfl

end Cert.KernelIdeal.Payload

end
-- ==== Proof.BlockValue.lean ====
/-
  What one grid point leaves in the output block.  The body's four trips store four [128, 1024] tiles that
  tile the [128, 4096] output block by columns; tile k holds, at (p, q), the entry built from row p of the input
  block, row 1024k + q of the weight, bias column 1024k + q, the down projection and column 1024k + q of the
  transposed up projection.  Every tile is therefore the restriction, to its columns, of ONE function of the
  block's index — `blockFn`: entry (p, o) from row p, weight row o, bias o, column o — and a buffer filled by
  stores that are all restrictions of one function holds that function.
-/
import proofs.«173151_j14499809591526_2_alg».proof.Proof.Pieces
import proofs.«173151_j14499809591526_2_alg».proof.Proof.Payload

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx Cert.Lora

/-- Entry (p, o) of the output block from the contents of the five input staging buffers: row p of the input
    block `x0`, row o of the weight `x1`, entry o of the bias row `x2`, the rows of the down projection `x3`, and
    column o of the transposed up projection `x4`. -/
def blockEntry (x0 : FVec Ideal S128x4096 .f32) (x1 : FVec Ideal S4096x4096 .bf16) (x2 : FVec Ideal S1x4096 .f32)
    (x3 : FVec Ideal S16x4096 .bf16) (x4 : FVec Ideal S16x4096 .bf16) (p : Fin 128) (o : Fin 4096) : EReal :=
  entry (fun i => x0 (ix2 p i)) (fun i => x1 (ix2 o i)) (x2 (ix2 (0 : Fin 1) o)) (fun r i => x3 (ix2 r i)) (fun r => x4 (ix2 r o))

/-- The output block as one function of its index. -/
def blockFn (x0 : FVec Ideal S128x4096 .f32) (x1 : FVec Ideal S4096x4096 .bf16) (x2 : FVec Ideal S1x4096 .f32)
    (x3 : FVec Ideal S16x4096 .bf16) (x4 : FVec Ideal S16x4096 .bf16) : FVec Ideal S128x4096 .f32 :=
  fun y => blockEntry x0 x1 x2 x3 x4 (y 0) (y 1)

/-- A tile stored at column offset 1024·κ, computed from weight rows 1024·κ …, up-projection columns 1024·κ … and
    bias columns 1024·κ …, is `blockFn` on columns 1024·κ … 1024·κ + 1023: entry (p, q) of the tile is entry
    (p, 1024·κ + q) of the block. -/
theorem tile_entry (x0 : FVec Ideal S128x4096 .f32) (x1 : FVec Ideal S4096x4096 .bf16) (x2 : FVec Ideal S1x4096 .f32)
    (x3 : FVec Ideal S16x4096 .bf16) (x4 : FVec Ideal S16x4096 .bf16) (o1 o2 o3 o4 : Fin 2 → ℕ) (κ : ℕ)
    (e1 : o1 = ![1024 * κ, 0]) (e2 : o2 = ![0, 1024 * κ]) (e3 : o3 = ![0, 1024 * κ]) (e4 : o4 = ![0, 1024 * κ])
    (i1 : ∀ a, o1 a + S1024x4096.size a ≤ S4096x4096.size a) (i2 : ∀ a, o2 a + S16x1024.size a ≤ S16x4096.size a)
    (i3 : ∀ a, o3 a + S1x1024.size a ≤ S1x4096.size a) (i4 : ∀ a, o4 a + S128x1024.size a ≤ S128x4096.size a)
    (p : Fin 128) (q : Fin 1024) :
    k0_pay1 (F := Ideal) x0 x3 (View.ld x1 (Rect.unit (s := S4096x4096) o1 S1024x4096.size i1))
        (View.ld x4 (Rect.unit (s := S16x4096) o2 S16x1024.size i2))
        (View.ld x2 (Rect.unit (s := S1x4096) o3 S1x1024.size i3)) (ix2 p q)
      = blockFn x0 x1 x2 x3 x4 ((Rect.unit (s := S128x4096) o4 S128x1024.size i4).emb (ix2 p q)) := by
  subst e1 e2 e3 e4
  rw [Payload.pay_apply]
  unfold blockFn blockEntry
  refine entry_congr (fun i => ?_) (fun i => ?_) ?_ (fun r i => rfl) (fun r => ?_)
  · refine congrArg x0 (funext fun a => Fin.ext ?_)
    match a with
    | ⟨0, _⟩ => show p.val = 0 + 1 * p.val; omega
    | ⟨1, _⟩ => rfl
  · refine congrArg x1 (funext fun a => Fin.ext ?_)
    match a with
    | ⟨0, _⟩ => rfl
    | ⟨1, _⟩ => show 0 + 1 * i.val = i.val; omega
  · refine congrArg x2 (funext fun a => Fin.ext ?_)
    match a with
    | ⟨0, _⟩ => rfl
    | ⟨1, _⟩ => rfl
  · refine congrArg x4 (funext fun a => Fin.ext ?_)
    match a with
    | ⟨0, _⟩ => show 0 + 1 * r.val = r.val; omega
    | ⟨1, _⟩ => rfl

/-- Each trip's tile is `blockFn` on the rectangle it is stored at. -/
theorem tile_apply (x0 : FVec Ideal S128x4096 .f32) (x1 : FVec Ideal S4096x4096 .bf16) (x2 : FVec Ideal S1x4096 .f32)
    (x3 : FVec Ideal S16x4096 .bf16) (x4 : FVec Ideal S16x4096 .bf16) (k : Fin k0_t1_loop.trips)
    (x : (Pieces.tile (F := Ideal) x0 x1 x2 x3 x4 k).1.shape.Idx) :
    (Pieces.tile (F := Ideal) x0 x1 x2 x3 x4 k).2 x = blockFn x0 x1 x2 x3 x4 ((Pieces.tile (F := Ideal) x0 x1 x2 x3 x4 k).1.emb x) := by
  obtain ⟨p, q, rfl⟩ : ∃ (p : Fin 128) (q : Fin 1024), x = ix2 p q := ⟨x 0, x 1, eq_ix2 x⟩
  exact tile_entry x0 x1 x2 x3 x4 (k0_off1 k) (k0_off2 k) (k0_off3 k) (k0_off4 k) k.val (k0_off1_eq k) (k0_off2_eq k) (k0_off3_eq k)
    (k0_off4_eq k) (k0_off1_inb k) (k0_off2_inb k) (k0_off3_inb k) (k0_off4_inb k) p q

/-- WHAT A GRID POINT LEAVES IN THE OUTPUT BLOCK: on whole staging buffers holding `x0 … x4`, the body's
    stores leave `blockFn x0 … x4`. -/
theorem out_eq (c : Dev nD) (i : grid0.Coords) (a1 : Memref sig .tc .vmem S128x4096 .f32) (h1 : a1.IsWhole) (a2 : Memref sig .tc .vmem S4096x4096 .bf16) (h2 : a2.IsWhole) (a3 : Memref sig .tc .vmem S1x4096 .f32) (h3 : a3.IsWhole) (a4 : Memref sig .tc .vmem S16x4096 .bf16) (h4 : a4.IsWhole) (a5 : Memref sig .tc .vmem S16x4096 .bf16) (h5 : a5.IsWhole) (a6 : Memref sig .tc .vmem S128x4096 .f32) (h6 : a6.IsWhole)
    (x0 : FVec Ideal S128x4096 .f32) (x1 : FVec Ideal S4096x4096 .bf16) (x2 : FVec Ideal S1x4096 .f32)
    (x3 : FVec Ideal S16x4096 .bf16) (x4 : FVec Ideal S16x4096 .bf16) :
    out0_A_5 (F := Ideal) c i a1 h1 a2 h2 a3 h3 a4 h4 a5 h5 a6 h6 x0 x1 x2 x3 x4 = blockFn x0 x1 x2 x3 x4 := by
  unfold out0_A_5
  rw [View.read_writes_eq_canon _ _ _ (cover0_A_5 (F := Ideal) c i a1 h1 a2 h2 a3 h3 a4 h4 a5 h5 a6 h6 x0 x1 x2 x3 x4)]
  funext y
  refine View.canon_apply_of_pieces (blockFn x0 x1 x2 x3 x4) _ (fun pc hpc x => ?_) y (cover0_A_5 (F := Ideal) c i a1 h1 a2 h2 a3 h3 a4 h4 a5 h5 a6 h6 x0 x1 x2 x3 x4 y)
  obtain ⟨k, rfl⟩ := Pieces.mem_run (F := Ideal) c i a1 h1 a2 h2 a3 h3 a4 h4 a5 h5 a6 h6 x0 x1 x2 x3 x4 pc hpc
  exact tile_apply x0 x1 x2 x3 x4 k x

end Cert.KernelIdeal.BlockValue

end
-- ==== Proof.Whole.lean ====
/-
  The result array as one function of the five argument arrays: entry (n, o) of the [8192, 4096] result is
  `Cert.Lora.entry` of row n of x, row o of W, b[o], the rows of A and row o of B,
      out[n, o] = (⟨x_n, W_o⟩ + b_o) + 2 · Σ_r ⟨x_n, A_r⟩ · B[o, r].
-/
import proofs.«173151_j14499809591526_2_alg».proof.Proof.Spec

noncomputable section

namespace Cert.Lora

open Idealize.ShloMosaic Idealize.ShloMosaic.ValueIdx

/-- A matrix of extended reals with literal extents. -/
abbrev Mat (r c : ℕ) : Type := (⟨2, ![r, c]⟩ : Shape).Idx → EReal
/-- A vector of extended reals with a literal extent. -/
abbrev Vct (n : ℕ) : Type := (⟨1, ![n]⟩ : Shape).Idx → EReal

/-- Entry (n, o) of the result from the argument arrays. -/
def outEntry (x : Mat 8192 4096) (W : Mat 4096 4096) (b : Vct 4096) (A : Mat 16 4096) (B : Mat 4096 16)
    (n : Fin 8192) (o : Fin 4096) : EReal :=
  entry (fun i => x (ix2 n i)) (fun i => W (ix2 o i)) (b (ix1 o)) (fun r i => A (ix2 r i)) (fun r => B (ix2 o r))

/-- The result array. -/
def out (x : Mat 8192 4096) (W : Mat 4096 4096) (b : Vct 4096) (A : Mat 16 4096) (B : Mat 4096 16) : Mat 8192 4096 :=
  fun j => outEntry x W b A B (j 0) (j 1)

end Cert.Lora

end
-- ==== Proof.ArrayValue.lean ====
/-
  From blocks to the array.  The grid has 64 points; point t stages rows 128t … 128t+127 of x (all 4096 columns),
  and the whole of the four other operands — the weight and the down projection (their change of float format is
  the identity on the extended reals), the bias reshaped to one row, and the up projection transposed — and writes
  back rows 128t … 128t+127 of the result.  What point t leaves in its output block is `blockFn` of those blocks,
  and entry (p, o) of it is entry (128t + p, o) of `Cert.Lora.out` of the argument arrays: the row of x is row
  128t + p, the weight row is row o of W, the bias entry is b[o], the column o of the transposed up projection is
  row o of B.  The 64 row blocks cover the result, so after the run the result array is `out` of the arguments.
-/
import proofs.«173151_j14499809591526_2_alg».proof.Proof.BlockValue
import proofs.«173151_j14499809591526_2_alg».proof.Proof.Whole
import proofs.«173151_j14499809591526_2_alg».proof.Proof.Gen.KernelIdeal.Value
import Idealize.ShloMosaic.Lib.StableHlo.Run
import Idealize.ShloMosaic.Lib.ValueLayout

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Lora Cert.KernelIdeal.BlockValue

variable (m : (ℓ : Loc nD τ sig) → Buf (Elt Ideal) ℓ) (ρ : Dev nD → PrngReg)

/-! ## The operands as the region finds them -/

/-- The weight operand is W with its float format changed. -/
theorem V_weight (c : Dev nD) : (V m c main_call0_v0 : S4096x4096.Idx → EReal)
    = truncf (F := Ideal) .bf16 (m ((c : Thread nD τ).loc main_arg1)) bitsLt_bf16_f32 := by
  dsimp only [Gen.V, Gen.hostOps0]; after_results; rfl

/-- The down-projection operand is A with its float format changed. -/
theorem V_down (c : Dev nD) : (V m c main_call0_v1 : S16x4096.Idx → EReal)
    = truncf (F := Ideal) .bf16 (m ((c : Thread nD τ).loc main_arg3)) bitsLt_bf16_f32 := by
  dsimp only [Gen.V, Gen.hostOps0]; after_results; rfl

/-- The up-projection operand is B with its float format changed, transposed. -/
theorem V_up (c : Dev nD) : (V m c main_call0_v3 : S16x4096.Idx → EReal)
    = transpose S16x4096 [1, 0] (truncf (F := Ideal) .bf16 (m ((c : Thread nD τ).loc main_arg4)) bitsLt_bf16_f32) transposes_S4096x16_S16x4096_1_0 := by
  dsimp only [Gen.V, Gen.hostOps0]; after_results; rfl

/-- The bias operand is b reshaped to one row. -/
theorem V_bias (c : Dev nD) : (V m c main_call0_v4 : S1x4096.Idx → EReal)
    = shapeCast S1x4096 (m ((c : Thread nD τ).loc main_arg2)) shapeCasts_S4096_S1x4096 := by
  dsimp only [Gen.V, Gen.hostOps0]; after_results; rfl

/-! ## The index maps, decided over the 64 grid points -/

/-- Point t stages block row t of x and writes back block row t of the result; the other four operands are
    staged whole (block (0, 0)) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The staged blocks, read at an entry -/

/-- Entry (p, i) of point t's block of input rows is x[128t + p, i]. -/
theorem rows_apply (c : Dev nD) (t : Fin cfg0.N) (p : Fin 128) (i : Fin 4096) (n : Fin 8192)
    (hn : n.val = 128 * t.val + p.val) :
    iblk m c 0 t (ix2 p i : S128x4096.Idx) = m ((c : Thread nD τ).loc main_arg0) (ix2 n i : S8192x4096.Idx) := by
  show V m c main_arg0 (((cfg0.win 0).blk t).view.emb (ix2 p i : S128x4096.Idx)) = _
  rw [V_main_arg0]
  refine congrArg _ (funext fun a => Fin.ext ?_)
  obtain ⟨e0, e1, -⟩ := idx_facts t
  match a with
  | ⟨0, _⟩ => show win0_0.index t (0 : Fin 2) * 128 + 1 * p.val = n.val; omega
  | ⟨1, _⟩ => show win0_0.index t (1 : Fin 2) * 4096 + 1 * i.val = i.val; omega

/-- Entry (o, i) of the staged weight is W[o, i], at every point. -/
theorem weight_apply (c : Dev nD) (t : Fin cfg0.N) (o : Fin 4096) (i : Fin 4096) :
    iblk m c 1 t (ix2 o i : S4096x4096.Idx) = m ((c : Thread nD τ).loc main_arg1) (ix2 o i : S4096x4096.Idx) := by
  show V m c main_call0_v0 (((cfg0.win 1).blk t).view.emb (ix2 o i : S4096x4096.Idx)) = _
  rw [V_weight]
  show m ((c : Thread nD τ).loc main_arg1) (((cfg0.win 1).blk t).view.emb (ix2 o i : S4096x4096.Idx)) = _
  refine congrArg _ (funext fun a => Fin.ext ?_)
  obtain ⟨-, -, e0, e1, -⟩ := idx_facts t
  match a with
  | ⟨0, _⟩ => show win0_1.index t (0 : Fin 2) * 4096 + 1 * o.val = o.val; omega
  | ⟨1, _⟩ => show win0_1.index t (1 : Fin 2) * 4096 + 1 * i.val = i.val; omega

/-- Entry (0, o) of the staged bias row is b[o], at every point. -/
theorem bias_apply (c : Dev nD) (t : Fin cfg0.N) (o : Fin 4096) :
    iblk m c 2 t (ix2 (0 : Fin 1) o : S1x4096.Idx) = m ((c : Thread nD τ).loc main_arg2) (ix1 o : S4096.Idx) := by
  show V m c main_call0_v4 (((cfg0.win 2).blk t).view.emb (ix2 (0 : Fin 1) o : S1x4096.Idx)) = _
  rw [V_bias]
  have e : ((cfg0.win 2).blk t).view.emb (ix2 (0 : Fin 1) o : S1x4096.Idx) = (ix2 (0 : Fin 1) o : S1x4096.Idx) := by
    refine funext fun a => Fin.ext ?_
    obtain ⟨-, -, -, -, e0, e1, -⟩ := idx_facts t
    match a with
    | ⟨0, _⟩ => show win0_2.index t (0 : Fin 2) * 1 + 1 * 0 = 0; omega
    | ⟨1, _⟩ => show win0_2.index t (1 : Fin 2) * 4096 + 1 * o.val = o.val; omega
  rw [e]
  exact shapeCast_a_1a_apply _ _ (0 : Fin 1) o

/-- Entry (r, i) of the staged down projection is A[r, i], at every point. -/
theorem down_apply (c : Dev nD) (t : Fin cfg0.N) (r : Fin 16) (i : Fin 4096) :
    iblk m c 3 t (ix2 r i : S16x4096.Idx) = m ((c : Thread nD τ).loc main_arg3) (ix2 r i : S16x4096.Idx) := by
  show V m c main_call0_v1 (((cfg0.win 3).blk t).view.emb (ix2 r i : S16x4096.Idx)) = _
  rw [V_down]
  show m ((c : Thread nD τ).loc main_arg3) (((cfg0.win 3).blk t).view.emb (ix2 r i : S16x4096.Idx)) = _
  refine congrArg _ (funext fun a => Fin.ext ?_)
  obtain ⟨-, -, -, -, -, -, e0, e1, -⟩ := idx_facts t
  match a with
  | ⟨0, _⟩ => show win0_3.index t (0 : Fin 2) * 16 + 1 * r.val = r.val; omega
  | ⟨1, _⟩ => show win0_3.index t (1 : Fin 2) * 4096 + 1 * i.val = i.val; omega

/-- Entry (r, o) of the staged transposed up projection is B[o, r], at every point. -/
theorem up_apply (c : Dev nD) (t : Fin cfg0.N) (r : Fin 16) (o : Fin 4096) :
    iblk m c 4 t (ix2 r o : S16x4096.Idx) = m ((c : Thread nD τ).loc main_arg4) (ix2 o r : S4096x16.Idx) := by
  show V m c main_call0_v3 (((cfg0.win 4).blk t).view.emb (ix2 r o : S16x4096.Idx)) = _
  rw [V_up]
  have e : ((cfg0.win 4).blk t).view.emb (ix2 r o : S16x4096.Idx) = (ix2 r o : S16x4096.Idx) := by
    refine funext fun a => Fin.ext ?_
    obtain ⟨-, -, -, -, -, -, -, -, e0, e1, -⟩ := idx_facts t
    match a with
    | ⟨0, _⟩ => show win0_4.index t (0 : Fin 2) * 16 + 1 * r.val = r.val; omega
    | ⟨1, _⟩ => show win0_4.index t (1 : Fin 2) * 4096 + 1 * o.val = o.val; omega
  rw [e]
  exact transpose_ix2_apply _ _ r o

/-! ## What a point writes back -/

/-- The result array of the run, as contents of the result buffer. -/
abbrev result (c : Dev nD) : Buf (Elt Ideal) ((c : Thread nD τ).loc main_v0) :=
  out (m ((c : Thread nD τ).loc main_arg0)) (m ((c : Thread nD τ).loc main_arg1)) (m ((c : Thread nD τ).loc main_arg2)) (m ((c : Thread nD τ).loc main_arg3)) (m ((c : Thread nD τ).loc main_arg4))

/-- What the output's staging buffer holds after point t is `blockFn` of the point's input blocks. -/
theorem outsAt_eq (c : Dev nD) (t : Fin cfg0.N) :
    outsAt0 m c t = blockFn (iblk m c 0 t) (iblk m c 1 t) (iblk m c 2 t) (iblk m c 3 t) (iblk m c 4 t) := by
  unfold outsAt0
  exact BlockValue.out_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)

/-- Entry (p, o) of what point t leaves is entry (128t + p, o) of the result. -/
theorem entry_point (c : Dev nD) (t : Fin cfg0.N) (p : Fin 128) (o : Fin 4096) (n : Fin 8192) (o' : Fin 4096)
    (hn : n.val = 128 * t.val + p.val) (ho : o' = o) :
    blockEntry (iblk m c 0 t) (iblk m c 1 t) (iblk m c 2 t) (iblk m c 3 t) (iblk m c 4 t) p o = outEntry (m ((c : Thread nD τ).loc main_arg0)) (m ((c : Thread nD τ).loc main_arg1)) (m ((c : Thread nD τ).loc main_arg2)) (m ((c : Thread nD τ).loc main_arg3)) (m ((c : Thread nD τ).loc main_arg4)) n o' := by
  subst ho
  unfold blockEntry outEntry
  exact entry_congr (fun i => rows_apply m c t p i n hn) (fun i => weight_apply m c t o' i) (bias_apply m c t o')
    (fun r i => down_apply m c t r i) (fun r => up_apply m c t r o')

/-- WHAT POINT t WRITES BACK is block t of the result. -/
theorem flushed_eq (c : Dev nD) (t : Fin cfg0.N) :
    (dats m 0 c).flushed 5 t = ((cfg0.win 5).blk t).view.read (Elt Ideal) (result m c) := by
  rw [Value.flushed5, outsAt_eq]
  funext y
  show blockEntry (iblk m c 0 t) (iblk m c 1 t) (iblk m c 2 t) (iblk m c 3 t) (iblk m c 4 t) (y 0) (y 1)
    = outEntry (m ((c : Thread nD τ).loc main_arg0)) (m ((c : Thread nD τ).loc main_arg1)) (m ((c : Thread nD τ).loc main_arg2)) (m ((c : Thread nD τ).loc main_arg3)) (m ((c : Thread nD τ).loc main_arg4)) ((((cfg0.win 5).blk t).view.emb y) 0) ((((cfg0.win 5).blk t).view.emb y) 1)
  obtain ⟨-, -, -, -, -, -, -, -, -, -, e0, e1⟩ := idx_facts t
  refine entry_point m c t (y 0) (y 1) _ _ ?_ (Fin.ext ?_)
  · show win0_5.index t (0 : Fin 2) * 128 + 1 * (y 0).val = 128 * t.val + (y 0).val; omega
  · show win0_5.index t (1 : Fin 2) * 4096 + 1 * (y 1).val = (y 1).val; omega

/-! ## The cover, and the run -/

/-- An index of the result is in point t's block iff each coordinate is in the block's range on its axis. -/
theorem mem_blk (t : Fin cfg0.N) (i : S8192x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v0).slice (win0_5.rect t)).set ↔ _
  rw [View.set_slice_whole, Rect.mem_set_unit]
  exact Iff.rfl

/-- Row n of the result lies in the block of point n / 128. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 64 := N_0
  have ht : (i 0).val / 128 < cfg0.N := by rw [hN]; omega
  refine ⟨⟨(i 0).val / 128, ht⟩, flush0_5 _, ?_⟩
  rw [mem_blk]
  obtain ⟨-, -, -, -, -, -, -, -, -, -, e0, e1⟩ := idx_facts ⟨(i 0).val / 128, ht⟩
  intro a
  match a with
  | ⟨0, _⟩ =>
    show win0_5.index ⟨(i 0).val / 128, ht⟩ (0 : Fin 2) * 128 ≤ (i 0).val ∧ (i 0).val < win0_5.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win0_5.index ⟨(i 0).val / 128, ht⟩ (1 : Fin 2) * 4096 ≤ (i 1).val ∧ (i 1).val < win0_5.index ⟨(i 0).val / 128, ht⟩ (1 : Fin 2) * 4096 + 4096
    rw [e1]
    omega

/-- After the run the result array is `out` of the argument arrays. -/
theorem final (c : Dev nD) : (dats m 0 c).arrAt 5 cfg0.N = result m c :=
  (dats m 0 c).arrAt_eq_of_cover 5 (result m c) (fun t _ => flushed_eq m c t) cover

/-- THE KERNEL'S RUN, READ: every weakly fair execution terminates with the result array at `out` of the argument
    arrays and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference computes `Cert.Lora.out`.  Its ten operations, read at entry (n, o): the first contraction is
  ⟨x_n, W_o⟩; the bias is broadcast to a row and then down the rows, so it reads b[o]; the second contraction is
  ⟨x_n, A_r⟩ at (n, r) and the third sums those against B[o, r] over the rank r; the splat of 2 multiplies that
  sum; the two halves are added.  That is `Cert.Lora.entry` of row n of x, row o of W, b[o], the rows of A and
  row o of B, term for term.
-/
import proofs.«173151_j14499809591526_2_alg».proof.Proof.Gen.ReferenceIdeal.Read
import proofs.«173151_j14499809591526_2_alg».proof.Proof.Whole

noncomputable section

namespace Cert.ReferenceIdeal.RefValue

open Cert.ReferenceIdeal Cert.ReferenceIdeal.Read Idealize.ShloMosaic Idealize.ShloMosaic.ValueIdx Cert.Lora

/-- The reference's last stage is the result array `out` of its five arguments. -/
theorem ref_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = out x0 x1 x2 x3 x4 := by
  funext j
  obtain ⟨n, o, rfl⟩ : ∃ (n : Fin 8192) (o : Fin 4096), j = ix2 n o := ⟨j 0, j 1, eq_ix2 j⟩
  have e0l : ∀ k, lidx_main_v0 (ix2 n o) k = ix2 n k := fun k => funext fun a => Fin.ext (by
    match a with | ⟨0, _⟩ => rfl | ⟨1, _⟩ => rfl)
  have e0r : ∀ k, ridx_main_v0 (ix2 n o) k = ix2 o k := fun k => funext fun a => Fin.ext (by
    match a with | ⟨0, _⟩ => rfl | ⟨1, _⟩ => rfl)
  have e12 : idx_main_v1 (idx_main_v2 (ix2 n o)) = ix1 o := funext fun a => Fin.ext (by
    match a with | ⟨0, _⟩ => rfl)
  have e5l : ∀ r, lidx_main_v5 (ix2 n o) r = ix2 n r := fun r => funext fun a => Fin.ext (by
    match a with | ⟨0, _⟩ => rfl | ⟨1, _⟩ => rfl)
  have e5r : ∀ r, ridx_main_v5 (ix2 n o) r = ix2 o r := fun r => funext fun a => Fin.ext (by
    match a with | ⟨0, _⟩ => rfl | ⟨1, _⟩ => rfl)
  have e4l : ∀ (r : Fin 16) k, lidx_main_v4 (ix2 n r) k = ix2 n k := fun r k => funext fun a => Fin.ext (by
    match a with | ⟨0, _⟩ => rfl | ⟨1, _⟩ => rfl)
  have e4r : ∀ (r : Fin 16) k, ridx_main_v4 (ix2 n r) k = ix2 r k := fun r k => funext fun a => Fin.ext (by
    match a with | ⟨0, _⟩ => rfl | ⟨1, _⟩ => rfl)
  rw [val_main_v8_apply, val_main_v3_apply, val_main_v7_apply, val_main_v0_apply, val_main_v2_apply, val_main_v1_apply,
    val_main_v6_apply, val_main_cst_apply, val_main_v5_apply]
  simp only [val_main_v4_apply, e0l, e0r, e12, e5l, e5r, e4l, e4r]
  rfl

end Cert.ReferenceIdeal.RefValue

end
-- ==== Proof.lean ====
/-
  The kernel fuses a dense layer with a rank-16 correction: for x : [8192, 4096], W : [4096, 4096], b : [4096],
  A : [16, 4096], B : [4096, 16],
      out[n, o] = (⟨x_n, W_o⟩ + b_o) + 2 · Σ_r ⟨x_n, A_r⟩ · B[o, r]            (Proof/Spec.lean, Proof/Whole.lean).
  The kernel walks 64 blocks of 128 rows of x; for each it computes x·Aᵀ once and then, in four trips over tiles of
  1024 output columns, x·Wᵀ + b + 2·(x·Aᵀ)·Bᵀ on the tile.  Over the extended reals every change of float format is
  the identity and every matrix product into a zero accumulator is the plain sum over its contracted axis, so a
  trip's tile is the function above on its columns (Proof/Payload.lean), the four tiles fill the block with it
  (Proof/Pieces.lean, Proof/BlockValue.lean), and the 64 blocks fill the result with it (Proof/ArrayValue.lean).
  The reference computes the same three contractions, bias broadcast and scale, in the same arrangement
  (Proof/RefValue.lean).  No law of the extended reals is used beyond reading each operation at an entry, so the
  finiteness of the inputs is never needed.  The ideal pass rewrote nothing in the kernel, so the kernel's
  idealization is its own text.
-/
import proofs.«173151_j14499809591526_2_alg».proof.Defs
import proofs.«173151_j14499809591526_2_alg».proof.Proof.Gen.Kernel
import proofs.«173151_j14499809591526_2_alg».proof.Proof.Gen.Kernel.Frame
import proofs.«173151_j14499809591526_2_alg».proof.Proof.Gen.KernelIdeal
import proofs.«173151_j14499809591526_2_alg».proof.Proof.Gen.KernelIdeal.Frame
import proofs.«173151_j14499809591526_2_alg».proof.Proof.Gen.KernelIdeal.Value
import proofs.«173151_j14499809591526_2_alg».proof.Proof.Gen.ReferenceIdeal
import proofs.«173151_j14499809591526_2_alg».proof.Proof.Gen.ReferenceIdeal.Run
import proofs.«173151_j14499809591526_2_alg».proof.Proof.Gen.ReferenceIdeal.Read
import proofs.«173151_j14499809591526_2_alg».proof.Proof.Gen.Pre_finite_inputs
import proofs.«173151_j14499809591526_2_alg».proof.Proof.ArrayValue
import proofs.«173151_j14499809591526_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Over the extended reals, from memories that agree on the five arguments, the kernel's result array and the
    reference's are both `Cert.Lora.out` of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
